-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192x1 : Shape := ⟨2, ![8192, 1]⟩
abbrev S512x8192 : Shape := ⟨2, ![512, 8192]⟩
abbrev S512x1 : Shape := ⟨2, ![512, 1]⟩
abbrev S512 : Shape := ⟨1, ![512]⟩
abbrev S1x8192 : Shape := ⟨2, ![1, 8192]⟩
abbrev S512x1024 : Shape := ⟨2, ![512, 1024]⟩
abbrev S1x1024 : Shape := ⟨2, ![1, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x8192, .f32⟩
  | .hbm, ⟨1, _⟩ => ⟨S8192x1, .f32⟩
  | .hbm, ⟨2, _⟩ => ⟨S1x8192, .f32⟩
  | .hbm, ⟨3, _⟩ => ⟨S8192x8192, .f32⟩
  | .hbm, ⟨4, _⟩ => ⟨S8192x8192, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S512x1024, .f32⟩
  | .local _ .vmem, ⟨5, _⟩ => ⟨S512x1024, .f32⟩
  | .local _ .vmem, ⟨6, _⟩ => ⟨S512x1, .f32⟩
  | .local _ .vmem, ⟨7, _⟩ => ⟨S512x1, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S8192x1_S1x8192 : S8192x1.ShapeCasts S1x8192
  inb_S512x1024_S512x1024_0_0 : ∀ a, (![0, 0] : Fin 2 → Nat) a + S512x1024.size a ≤ S512x1024.size a
  h_S512x1024 : 0 < S512x1024.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  iota_S512x1024_d0_w32 : S512x1024.Iotas .tc 32 [0]
  iota_S512x1024_d1_w32 : S512x1024.Iotas .tc 32 [1]
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x8192.size a
  hwx1_0 : ∀ i : grid1.Coords, EltTy.bits .f32 = 32 ∨ (Rect.block (s := S8192x8192) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S8192x1.size a
  hwx1_1 : ∀ i : grid1.Coords, EltTy.bits .f32 = 32 ∨ (Rect.block (s := S8192x1) S512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x8192.size a
  hwx1_3 : ∀ i : grid1.Coords, EltTy.bits .f32 = 32 ∨ (Rect.block (s := S8192x8192) S512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S8192x8192.size a
  hwx1_4 : ∀ i : grid1.Coords, EltTy.bits .f32 = 32 ∨ (Rect.block (s := S8192x8192) S512x1024.size (cc1_transform_4 i) (hinb1_4 i)).WholeWords (EltTy.packing .f32)

variable [Facts₀]

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S512x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S8192, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .i1⟩
  | .hbm, ⟨11, _⟩ => ⟨S_, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .i32⟩
  | .hbm, ⟨22, _⟩ => ⟨S8192x8192, .i32⟩
  | .hbm, ⟨23, _⟩ => ⟨S_, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v4 : Ref sig .tc := ⟨.hbm, 10, rfl⟩
abbrev main_cst_1 : Ref sig .tc := ⟨.hbm, 11, rfl⟩
abbrev main_call1_v0 : Ref sig .tc := ⟨.hbm, 12, rfl⟩
abbrev main_call1_v1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)

variable [Facts₀]

class Facts : Prop extends Facts₀ where

variable [Facts]
-- ==== Proof.KernelRun.lean ====
/-
  The kernel's run with its two result arrays named.

  The program is two pipelined calls with one reshape between them.  Every weakly fair execution ends, without a fault, with
  the first result array at what the second call's write-backs of its window 3 leave, the second at what the write-backs of
  window 4 leave, and the argument array as launched.  The two arrays are then read, block by block, in the modules
  that follow.
-/
import proofs.«174686_j73315091742991_2_alg».proof.Proof.FrameKI

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with result 0 at the fold of the second call's write-backs through
    window 3, result 1 at the fold through window 4, and the argument unchanged. -/
theorem run_results : θ_run defs (onTc (τ := τ) (main (F := F))) ⟨m, fun _ => 0, ρ⟩ (fun r => ∀ c : Dev nD,
      r.2.mem ((c.tc : Thread nD τ).loc main_v2_0) = (dat1 (V2 m ρ) c).arrAt 3 cfg1.N
      ∧ r.2.mem ((c.tc : Thread nD τ).loc main_v2_1) = (dat1 (V2 m ρ) c).arrAt 4 cfg1.N
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2_0 (by decide))).trans (W3_arr m ρ c 3),
        (h c _ (mem_uc main_v2_1 (by decide))).trans (W3_arr m ρ c 4),
        (h c _ (mem_uc main_arg0 (by decide))).trans (W3_main_arg0 m ρ c)⟩)

end Cert.KernelIdeal.Val

end
-- ==== Proof.Scale.lean ====
/-
  The mathematics of the two graph filters, on the extended reals.

  For a square matrix `A` let `s i` be the sum of row `i` and `d i` the scale `1 / √(s i)`, taken to be `0` where that
  quotient is not a finite number.  The low-pass filter is `L i j = d i · A i j · d j` and the high-pass filter is
  `H i j = 2·[i = j] − L i j`.

  Two spellings of the scale meet here.  One takes the reciprocal square root where the row sum is positive and `0`
  elsewhere.  The other divides `1` by the square root and replaces an infinite quotient by `0`.  On the extended reals they
  are the same function of the row sum: a negative sum has square root `−∞`, whose reciprocal is `0`; a zero sum gives
  `1 / 0 = +∞`, replaced by `0`; `+∞` gives `0` both ways; a positive real gives `(√s)⁻¹` both ways.  The scale is always a
  real number.

  Two spellings of the filters meet as well: `δ − (δ − x)` against `x`, and `δ + (δ − x)` against `2·δ − x`, for `δ` one
  of `0`, `1`.  They agree when `x` is a real number, which it is when the entry `A i j` is.
-/
import Idealize.ShloMosaic.PureOps.Ideal
import Idealize.ShloMosaic.PureOps.Ideal.Laws
import Idealize.ShloMosaic.Lib.ValueIdx

noncomputable section

namespace Cert.GraphFilter

open Idealize.ShloMosaic Idealize.ShloMosaic.ValueIdx

/-! ## The float words that occur -/

theorem word_one : Ideal.ofBits .f32 0x3F800000#32 = 1 := by
  simp [Ideal.ofBits, Ideal.ieee]
  rw [← EReal.coe_mul, ← EReal.coe_one]
  congr 1; norm_num
theorem word_two : Ideal.ofBits .f32 0x40000000#32 = 2 := by
  have h2 : (2 : EReal) = ((2 : ℝ) : EReal) := by norm_cast
  simp [Ideal.ofBits, Ideal.ieee]
  rw [← EReal.coe_mul, h2]
  congr 1; norm_num
theorem word_inf : Ideal.ofBits .f32 0x7F800000#32 = ⊤ := by
  simp [Ideal.ofBits, Ideal.ieee]

/-! ## The scale of a row sum -/

/-- The reciprocal square root where the sum is positive, zero elsewhere. -/
def scaleK (s : EReal) : EReal := if 0 < s then Ideal.rsqrt s else 0

/-- One over the square root, an infinite quotient replaced by zero. -/
def scaleR (s : EReal) : EReal :=
  if max (Ideal.div 1 (Ideal.sqrt s)) (-(Ideal.div 1 (Ideal.sqrt s))) = ⊤ then 0 else Ideal.div 1 (Ideal.sqrt s)

/-- The scale is a real number, whatever the row sum. -/
theorem scaleK_real (s : EReal) : ∃ r : ℝ, scaleK s = (r : EReal) := by
  unfold scaleK
  induction s using EReal.rec with
  | bot => exact ⟨0, by simp⟩
  | top => exact ⟨0, by simp⟩
  | coe r =>
    by_cases h : (0 : EReal) < (r : EReal)
    · rw [if_pos h]
      have hr : 0 < r := by exact_mod_cast h
      refine ⟨(Real.sqrt r)⁻¹, ?_⟩
      rw [Ideal.rsqrt_coe, if_neg (not_lt.mpr hr.le), if_neg hr.ne']
    · rw [if_neg h]; exact ⟨0, rfl⟩

/-- The two spellings of the scale are one function of the row sum. -/
theorem scaleR_eq_scaleK (s : EReal) : scaleR s = scaleK s := by
  unfold scaleR scaleK
  induction s using EReal.rec with
  | bot =>
    have e : Ideal.div 1 (Ideal.sqrt ⊥) = 0 := by
      simp [Ideal.div]
    rw [e]; simp
  | top =>
    have e : Ideal.div 1 (Ideal.sqrt ⊤) = 0 := by
      simp [Ideal.div]
    rw [e]; simp
  | coe r =>
    rcases lt_trichotomy r 0 with hr | hr | hr
    · have e : Ideal.div 1 (Ideal.sqrt (r : EReal)) = 0 := by
        rw [Ideal.sqrt_coe, if_pos hr]; simp [Ideal.div]
      have hn : ¬ (0 : EReal) < (r : EReal) := by
        intro h; have : 0 < r := by exact_mod_cast h
        exact absurd hr (not_lt.mpr this.le)
      rw [e, if_neg hn]; simp
    · subst hr
      have e : Ideal.div 1 (Ideal.sqrt ((0 : ℝ) : EReal)) = ⊤ := by
        rw [Ideal.sqrt_coe, if_neg (lt_irrefl _), Real.sqrt_zero]
        simp [Ideal.div]
      rw [e]; simp
    · have hs : 0 < Real.sqrt r := Real.sqrt_pos.mpr hr
      have e : Ideal.div 1 (Ideal.sqrt (r : EReal)) = (((Real.sqrt r)⁻¹ : ℝ) : EReal) := by
        rw [Ideal.sqrt_coe, if_neg (not_lt.mpr hr.le)]
        unfold Ideal.div
        rw [if_neg (by exact_mod_cast hs.ne'), one_mul, ← EReal.coe_inv]
      have hp : (0 : EReal) < (r : EReal) := by exact_mod_cast hr
      rw [e, if_pos hp, Ideal.rsqrt_coe, if_neg (not_lt.mpr hr.le), if_neg hr.ne']
      rw [if_neg]
      rcases max_choice (((Real.sqrt r)⁻¹ : ℝ) : EReal) (-(((Real.sqrt r)⁻¹ : ℝ) : EReal)) with h | h
      · rw [h]; exact EReal.coe_ne_top _
      · rw [h, ← EReal.coe_neg]; exact EReal.coe_ne_top _

/-! ## The filters -/

/-- A square matrix of 8192 rows over the extended reals. -/
abbrev Mat : Type := (⟨2, ![8192, 8192]⟩ : Shape).Idx → EReal

/-- The sum of a row. -/
def rowSum (A : Mat) (i : Fin 8192) : EReal := ∑ k : Fin 8192, A (ix2 i k)

/-- The scale of a row. -/
def scale (A : Mat) (i : Fin 8192) : EReal := scaleK (rowSum A i)

/-- The low-pass filter: each entry scaled by its row's and its column's scale. -/
def lowPass (A : Mat) : Mat := fun p => scale A (p 0) * A p * scale A (p 1)

/-- The high-pass filter: twice the identity less the low-pass filter. -/
def highPass (A : Mat) : Mat := fun p => 2 * (if (p 0).val = (p 1).val then (1 : EReal) else 0) - lowPass A p

/-- A real entry has a real low-pass entry. -/
theorem lowPass_real (A : Mat) (p) (hA : ∃ a : ℝ, A p = (a : EReal)) : ∃ x : ℝ, lowPass A p = (x : EReal) := by
  obtain ⟨a, ha⟩ := hA
  obtain ⟨r0, h0⟩ := scaleK_real (rowSum A (p 0))
  obtain ⟨r1, h1⟩ := scaleK_real (rowSum A (p 1))
  refine ⟨r0 * a * r1, ?_⟩
  unfold lowPass scale
  rw [h0, h1, ha, EReal.coe_mul, EReal.coe_mul]

/-- `δ − (δ − x) = x` for `δ` zero or one and `x` real. -/
theorem sub_sub_self_real (δ : EReal) (hδ : δ = 0 ∨ δ = 1) (x : ℝ) : δ - (δ - (x : EReal)) = (x : EReal) := by
  rcases hδ with rfl | rfl
  · simp
  · rw [← EReal.coe_one, ← EReal.coe_sub, ← EReal.coe_sub]
    congr 1; ring

/-- `δ + (δ − x) = 2·δ − x` for `δ` zero or one and `x` real. -/
theorem add_sub_real (δ : EReal) (hδ : δ = 0 ∨ δ = 1) (x : ℝ) : δ + (δ - (x : EReal)) = 2 * δ - (x : EReal) := by
  have h2 : (2 : EReal) = ((2 : ℝ) : EReal) := by norm_cast
  rcases hδ with rfl | rfl
  · simp
  · rw [h2, ← EReal.coe_one, ← EReal.coe_sub, ← EReal.coe_add, ← EReal.coe_mul, ← EReal.coe_sub]
    congr 1; ring

end Cert.GraphFilter

end
-- ==== Proof.LibRowReduce.lean ====
/-
  A matrix reduced along its rows, the result kept as a column: the layout steps and the reductions, read at an index.

  A reduction of an `[a, b]` matrix over its second axis yields a vector of `a` entries.  Kept as a column it is cast to
  `[a, 1]`, and to meet the matrix again it is broadcast back to `[a, b]`: entry `(i, j)` of the broadcast is entry `i` of
  the vector.  The reductions themselves, at the extended reals: a row's maximum is the fold of `max` over the row from
  the starting value, a row's sum is the sum over the row.  The same two readings hold for the last axis of an
  `[n, a, b]` array reduced by a host program, where the starting value is added in front of the sum.
-/
import Idealize.ShloMosaic.Lib.Pipeline.Value
import Idealize.ShloMosaic.Lib.ValueIdx
import Idealize.ShloMosaic.PureOps.Ideal.Laws

noncomputable section

namespace Cert.RowReduce

open Idealize.ShloMosaic Idealize.ShloMosaic.ValueIdx

variable {α : Type}

/-! ## The column of a vector -/

/-- A vector of `a` entries cast to a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along the rows of an `[a, b]` matrix reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector kept as a column and broadcast along the rows reads, at `(i, j)`, the vector's entry `i`. -/
theorem broadcastTo_column_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

/-! ## A matrix reduced along its rows -/

/-- Over entry `i` of the reduced vector, the matrix index with `k` on the reduced axis is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

variable {φ : FTy}

/-- A row's maximum at the extended reals: the fold of `max` over the row's entries from the starting value. -/
theorem multiReduction_maximumf_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  have e : (X ∘ h.lift (ix1 i)) = fun k => X (ix2 i k) := funext fun k => congrArg X (lift_row h i k)
  rw [Ideal.multiReduction_maximumf_single, e]
  rfl

/-- A row's sum at the extended reals: the sum over the row's entries. -/
theorem multiReduction_add_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ k : Fin b, X (ix2 i k) := by
  rw [Ideal.multiReduction_add_single]
  exact Finset.sum_congr rfl fun k _ => congrArg X (lift_row h i k)

/-! ## The last axis of a rank-3 array reduced by a host program -/

/-- Over entry `(p, i)` of the reduced array, the source index with `k` on the reduced axis is `(p, i, k)`. -/
theorem lift_last3 {n a b : ℕ} (h : (⟨3, ![n, a, b]⟩ : Shape).Reduces [2] ⟨2, ![n, a]⟩) (p : Fin n) (i : Fin a) (k : Fin b) :
    h.lift (ix2 p i) k = ix3 p i k :=
  funext fun c => Fin.ext (by match c with | ⟨0, _⟩ => rfl | ⟨1, _⟩ => rfl | ⟨2, _⟩ => rfl)

/-- A host maximum over the last axis: the fold of `max` over that axis from the starting value. -/
theorem hostReduce_maximumf_last3 {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (i : Fin a) :
    Host.reduce (FloatOps.maximumf (F := Ideal) (φ := φ)) x init h' hu (ix2 p i)
      = (Finset.univ : Finset (Fin b)).fold max (init (Shape.Idx.first hu)) (fun k => x (ix3 p i k)) := by
  have e : (x ∘ h.lift (ix2 p i)) = fun k => x (ix3 p i k) := funext fun k => congrArg x (lift_last3 h p i k)
  rw [Host.reduce_eq_fold_single (FloatOps.maximumf (F := Ideal) (φ := φ)) x init h' h hu, e]
  rfl

/-- A host sum over the last axis: the starting value plus the sum over that axis. -/
theorem hostReduceAdd_last3 {n a b : ℕ} (x : (⟨3, ![n, a, b]⟩ : Shape).Idx → EReal) (init : EReal)
    (h' : (⟨3, ![n, a, b]⟩ : Shape).ReducesTo [2] ⟨2, ![n, a]⟩) (h : (⟨3, ![n, a, b]⟩ : Shape).Reduces [2] ⟨2, ![n, a]⟩)
    (p : Fin n) (i : Fin a) :
    Ideal.hostReduceAdd h' x init (ix2 p i) = init + ∑ k : Fin b, x (ix3 p i k) := by
  rw [Ideal.hostReduceAdd_single h' h]
  exact congrArg (init + ·) (Finset.sum_congr rfl fun k _ => congrArg x (lift_last3 h p i k))

end Cert.RowReduce

end
-- ==== Proof.RowScale.lean ====
/-
  The first pass: the column of row scales.

  The first call walks the matrix in sixteen strips of 512 rows.  At a strip it sums each row of the strip along the lanes
  and stores, in the strip's place of an 8192-entry column, the reciprocal square root of the sum where the sum is positive
  and zero elsewhere.  Strip `t` holds rows `512·t … 512·t + 511` of the matrix, so entry `i` of the column ends as the
  scale of row `i` of the whole matrix; the sixteen strips cover the column.
-/
import proofs.«174686_j73315091742991_2_alg».proof.Proof.FrameKI
import proofs.«174686_j73315091742991_2_alg».proof.Proof.Scale
import proofs.«174686_j73315091742991_2_alg».proof.Proof.LibRowReduce
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.GenP Cert.GraphFilter Cert.RowReduce
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- A select on "greater than" is the `if` on the order. -/
theorem select_ogt {α : Type} (x y : EReal) (a b : α) : Scalar.select (Ideal.cmp .ogt x y) a b = if y < x then a else b := by
  unfold Scalar.select Ideal.cmp
  by_cases h : y < x <;> simp [h]

/-- What the first pass stores at row `p` of a strip: the scale of that row's sum. -/
theorem rowScale_apply (x0 : Vec Ideal S512x8192 .f32) (p : Fin 512) (q : Fin 1) :
    k0_pay1 (F := Ideal) x0 (ix2 p q) = scaleK (∑ k : Fin 8192, x0 (ix2 p k)) := by
  have hs : shapeCast S512x1 (multiReduction (F := Ideal) .add [1] S512 x0 0x00000000#32 reduces_S512x8192_S512 (.inl rfl) rfl) shapeCasts_S512_S512x1 (ix2 p q)
      = ∑ k : Fin 8192, x0 (ix2 p k) :=
    (shapeCast_a_a1_apply _ shapeCasts_S512_S512x1 p q).trans (multiReduction_add_row x0 _ reduces_S512x8192_S512 (.inl rfl) rfl p)
  unfold k0_pay1
  refine (select_ogt _ _ _ _).trans ?_
  unfold scaleK
  show (if Ideal.ofBits .f32 0x00000000#32 < shapeCast S512x1 _ shapeCasts_S512_S512x1 (ix2 p q) then Ideal.rsqrt (shapeCast S512x1 _ shapeCasts_S512_S512x1 (ix2 p q)) else Ideal.ofBits .f32 0x00000000#32) = _
  rw [hs, Ideal.ofBits_zero_f32]

/-- The column of row scales of a matrix. -/
def scaleCol (A : S8192x8192.Idx → EReal) : S8192x1.Idx → EReal := fun i => scale A (i 0)

section
variable (V : (c : Dev nD) → (b : Ref sig .tc) → Buf (Elt Ideal) ((c : Thread nD τ).loc b))

/-- Where the first call's windows sit at a point: the strip `t`, at column 0. -/
theorem strip_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The matrix window's block at strip `t` reads rows `512·t + p` of the matrix. -/
theorem strip_apply (c : Dev nD) (t : Fin cfg0.N) (p : Fin 512) (k : Fin 8192) (i : Fin 8192) (hi : i.val = t.val * 512 + p.val) :
    (iblk0 V c 0 t : Vec Ideal S512x8192 .f32) (ix2 p k) = (V c main_arg0 : S8192x8192.Idx → EReal) (ix2 i k) := by
  obtain ⟨e0, e1, -, -⟩ := strip_index t
  unfold iblk0
  rw [View.read_apply]
  show (V c main_arg0 : S8192x8192.Idx → EReal) _ = _
  refine congrArg _ (funext fun a => Fin.ext ?_)
  match a with
  | ⟨0, _⟩ => show win0_0.index t (0 : Fin 2) * 512 + 1 * p.val = i.val; rw [e0, hi]; omega
  | ⟨1, _⟩ => show win0_0.index t (1 : Fin 2) * 8192 + 1 * k.val = k.val; rw [e1]; omega

/-- What strip `t` writes back is block `t` of the column of row scales. -/
theorem flushed_scaleCol (c : Dev nD) (t : Fin cfg0.N) :
    (dat0 V c).flushed 1 t = ((cfg0.win 1).blk t).view.read (Elt Ideal) (scaleCol (V c main_arg0)) := by
  have hN : grid0.N = 16 := N_0
  obtain ⟨-, -, e0, e1⟩ := strip_index t
  show (cfg0.win 1).cut (grid0.coords t) ((dat0 V c).after 1 t) = _
  rw [after0_1]
  unfold out0_1
  rw [View.canon_unit_zero hz]
  simp only [View.ld_unit_zero (S := S512x8192) hz]
  funext j
  obtain ⟨p, q, rfl⟩ : ∃ (p : Fin 512) (q : Fin 1), j = ix2 p q := ⟨j 0, j 1, eq_ix2 j⟩
  have ht : t.val < 16 := hN ▸ t.isLt
  have hi : t.val * 512 + p.val < 8192 := by have := p.isLt; omega
  show k0_pay1 (F := Ideal) (iblk0 V c 0 t) (ix2 p q) = scaleCol (V c main_arg0) (((cfg0.win 1).blk t).view.emb (ix2 p q))
  rw [rowScale_apply]
  have hemb : (((cfg0.win 1).blk t).view.emb (ix2 p q) : S8192x1.Idx) 0 = (⟨t.val * 512 + p.val, hi⟩ : Fin 8192) := by
    apply Fin.ext
    show win0_1.index t (0 : Fin 2) * 512 + 1 * p.val = t.val * 512 + p.val
    rw [e0]; omega
  unfold scaleCol scale rowSum
  rw [hemb]
  exact congrArg scaleK (Finset.sum_congr rfl fun k _ => strip_apply V c t p k _ rfl)

/-- An index of the column is in strip `t`'s block iff its row is one of the strip's. -/
theorem mem_strip (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0).slice (win0_1.rect t)).set ↔ _
  rw [View.set_slice_whole, Rect.mem_set_unit]
  exact Iff.rfl

/-- After the first call the column holds the row scales of the matrix the call found. -/
theorem final_scaleCol (c : Dev nD) : (dat0 V c).arrAt 1 cfg0.N = scaleCol (V c main_arg0) := by
  refine (dat0 V c).arrAt_eq_of_cover 1 (scaleCol (V c main_arg0)) (fun t _ => flushed_scaleCol V c t) fun i => ?_
  have hN : grid0.N = 16 := N_0
  have h0 : (i 0).val < 8192 := (i 0).isLt
  have h1 : (i 1).val < 1 := (i 1).isLt
  let t : Fin cfg0.N := ⟨(i 0).val / 512, by show (i 0).val / 512 < grid0.N; rw [hN]; omega⟩
  obtain ⟨-, -, e0, e1⟩ := strip_index t
  refine ⟨t, flush0_1 t, ?_⟩
  rw [mem_strip]
  intro a
  match a with
  | ⟨0, _⟩ =>
    show win0_1.index t (0 : Fin 2) * 512 ≤ (i 0).val ∧ (i 0).val < win0_1.index t (0 : Fin 2) * 512 + 512
    rw [e0]; show (i 0).val / 512 * 512 ≤ (i 0).val ∧ (i 0).val < (i 0).val / 512 * 512 + 512; omega
  | ⟨1, _⟩ =>
    show win0_1.index t (1 : Fin 2) * 1 ≤ (i 1).val ∧ (i 1).val < win0_1.index t (1 : Fin 2) * 1 + 1
    rw [e1]; omega

end

end Cert.KernelIdeal.Val

end
-- ==== Proof.DiagWord.lean ====
/-
  The identity matrix, as the two programs spell it with 32-bit words.

  One program works tile by tile: at the tile in tile-row `a` and tile-column `b` (tiles of 512 rows and 1024 columns of an
  8192 × 8192 matrix) the entry at local position `(p, q)` lies on the diagonal when the word `p − q + (512·a − 1024·b)` is
  zero.  All the numbers involved are below 2³², so the word is zero exactly when `512·a + p = 1024·b + q`, that is, when the
  entry's row and column in the whole matrix are equal.  The other program compares the row and column numbers directly.
  Both are converted to a float: the word `1` or `0` read as the real number `1` or `0`.
-/
import Idealize.ShloMosaic.PureOps.Ideal

noncomputable section

namespace Cert.GraphFilter

open Idealize.ShloMosaic

/-- The tile-local test for the diagonal is the equality of the global row and column. -/
theorem tile_diag_iff (a b p q : ℕ) (ha : a < 16) (hb : b < 8) (hp : p < 512) (hq : q < 1024) :
    BitVec.ofNat 32 p - BitVec.ofNat 32 q + (BitVec.ofNat 32 a * 512#32 - BitVec.ofNat 32 b * 1024#32) = 0#32
      ↔ a * 512 + p = b * 1024 + q := by
  constructor
  · intro h; bv_omega
  · intro h; bv_omega

/-- The tile-local test, widened to 32 bits and read as a signed integer, is `1` on the diagonal and `0` off it. -/
theorem tile_diag_toInt (a b p q : ℕ) (ha : a < 16) (hb : b < 8) (hp : p < 512) (hq : q < 1024) :
    (((BitVec.ofBool (BitVec.ofNat 32 p - BitVec.ofNat 32 q + (BitVec.ofNat 32 a * 512#32 - BitVec.ofNat 32 b * 1024#32) == 0#32)).setWidth 32).toInt : ℝ)
      = if a * 512 + p = b * 1024 + q then 1 else 0 := by
  by_cases h : a * 512 + p = b * 1024 + q
  · have hw := (tile_diag_iff a b p q ha hb hp hq).mpr h
    rw [if_pos h, hw]; simp
  · have hw : ¬ (BitVec.ofNat 32 p - BitVec.ofNat 32 q + (BitVec.ofNat 32 a * 512#32 - BitVec.ofNat 32 b * 1024#32) = 0#32) :=
      fun e => h ((tile_diag_iff a b p q ha hb hp hq).mp e)
    rw [if_neg h, show ((BitVec.ofNat 32 p - BitVec.ofNat 32 q + (BitVec.ofNat 32 a * 512#32 - BitVec.ofNat 32 b * 1024#32)) == 0#32) = false from by simpa using hw]
    simp

/-- The direct comparison of a row and a column number below 8192, read as an unsigned integer. -/
theorem index_eq_toNat (r c : ℕ) (hr : r < 8192) (hc : c < 8192) :
    (((BitVec.ofBool (BitVec.ofNat 32 r + 0#32 == BitVec.ofNat 32 c)).toNat : ℝ)) = if r = c then 1 else 0 := by
  by_cases h : r = c
  · subst h; simp
  · have hw : ¬ (BitVec.ofNat 32 r + 0#32 = BitVec.ofNat 32 c) := by
      intro e; apply h; bv_omega
    rw [if_neg h, show ((BitVec.ofNat 32 r + 0#32) == BitVec.ofNat 32 c) = false from by simpa using hw]
    simp

end Cert.GraphFilter

end
-- ==== Proof.DadBlock.lean ====
/-
  The second pass, tile by tile.

  The second call walks the matrix in 16 × 8 tiles of 512 rows and 1024 columns.  At a tile it reads the tile of the matrix,
  the 512 entries of a column of scales that belong to the tile's rows, and the 1024 entries of a row of scales that belong
  to the tile's columns; it stores the product  (row scale · entry) · column scale  into the tile of the first result, and
  into the tile of the second result it stores zero minus that product — and then, only at a tile that meets the diagonal,
  stores there again twice the tile of the identity minus the product.  A tile that does not meet the diagonal holds no
  diagonal entry, where twice the identity is zero: both cases store  2·[row = column] − product.
  Tile `(a, b)` holds rows `512·a …` and columns `1024·b …`, and the 128 tiles cover each result.
-/
import proofs.«174686_j73315091742991_2_alg».proof.Proof.FrameKI
import proofs.«174686_j73315091742991_2_alg».proof.Proof.Scale
import proofs.«174686_j73315091742991_2_alg».proof.Proof.DiagWord
import proofs.«174686_j73315091742991_2_alg».proof.Proof.LibRowReduce
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Tile

open Cert.KernelIdeal Cert.KernelIdeal.Gen Cert.KernelIdeal.GenP Cert.GraphFilter Cert.RowReduce
open Idealize.ShloMosaic Idealize.ShloMosaic.TcCoe Idealize.SL.Sem Idealize.ShloMosaic.ValueIdx Idealize.ShloMosaic.Tactic
open Idealize.ShloMosaic.Pipeline (Dat)

theorem hz : (![0, 0] : Fin 2 → Nat) = fun _ => 0 := funext fun a => by fin_cases a <;> rfl

/-! ## What each case of the body leaves in the two result tiles -/

section Pieces
variable {F : FTy → Type} [FloatOps F]

theorem low_off (c : Dev nD) (i : grid1.Coords) (arg2 : Memref sig .tc .vmem S512x1024 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (x0 : Vec F S512x1024 .f32) (x1 : Vec F S512x1 .f32) (x2 : Vec F S1x1024 .f32) :
    out1_A_3 c i arg2 harg2 arg3 harg3 arg4 harg4 arg5 harg5 arg6 harg6 hc0 x0 x1 x2 = k1_pay1 x0 x1 x2 := by
  unfold out1_A_3
  rw [View.read_writes_eq_canon _ _ _ (cover1_A_3 c i arg2 harg2 arg3 harg3 arg4 harg4 arg5 harg5 arg6 harg6 hc0 x0 x1 x2)]
  unfold kernelRun1_A
  dsimp only
  try sl_unfold_words
  rw [View.canon_unit_zero hz]
  simp only [View.readAt_eq_ld, harg2.read_unread, harg3.read_unread, harg4.read_unread,
    View.ld_unit_zero (S := S512x1024) hz, View.ld_unit_zero (S := S512x1) hz, View.ld_unit_zero (S := S1x1024) hz]

theorem high_off (c : Dev nD) (i : grid1.Coords) (arg2 : Memref sig .tc .vmem S512x1024 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (x0 : Vec F S512x1024 .f32) (x1 : Vec F S512x1 .f32) (x2 : Vec F S1x1024 .f32) :
    out1_A_4 c i arg2 harg2 arg3 harg3 arg4 harg4 arg5 harg5 arg6 harg6 hc0 x0 x1 x2 = k1_pay2 x0 x1 x2 := by
  unfold out1_A_4
  rw [View.read_writes_eq_canon _ _ _ (cover1_A_4 c i arg2 harg2 arg3 harg3 arg4 harg4 arg5 harg5 arg6 harg6 hc0 x0 x1 x2)]
  unfold kernelRun1_A
  dsimp only
  try sl_unfold_words
  rw [View.canon_unit_zero hz]
  simp only [View.readAt_eq_ld, harg2.read_unread, harg3.read_unread, harg4.read_unread,
    View.ld_unit_zero (S := S512x1024) hz, View.ld_unit_zero (S := S512x1) hz, View.ld_unit_zero (S := S1x1024) hz]

theorem low_on (c : Dev nD) (i : grid1.Coords) (arg2 : Memref sig .tc .vmem S512x1024 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond1_0 i) (x0 : Vec F S512x1024 .f32) (x1 : Vec F S512x1 .f32) (x2 : Vec F S1x1024 .f32) :
    out1_B_3 c i arg2 harg2 arg3 harg3 arg4 harg4 arg5 harg5 arg6 harg6 hc0 x0 x1 x2 = k1_pay1 x0 x1 x2 := by
  unfold out1_B_3
  rw [View.read_writes_eq_canon _ _ _ (cover1_B_3 c i arg2 harg2 arg3 harg3 arg4 harg4 arg5 harg5 arg6 harg6 hc0 x0 x1 x2)]
  unfold kernelRun1_B
  dsimp only
  try sl_unfold_words
  rw [View.canon_unit_zero hz]
  simp only [View.readAt_eq_ld, harg2.read_unread, harg3.read_unread, harg4.read_unread,
    View.ld_unit_zero (S := S512x1024) hz, View.ld_unit_zero (S := S512x1) hz, View.ld_unit_zero (S := S1x1024) hz]

theorem high_on (c : Dev nD) (i : grid1.Coords) (arg2 : Memref sig .tc .vmem S512x1024 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond1_0 i) (x0 : Vec F S512x1024 .f32) (x1 : Vec F S512x1 .f32) (x2 : Vec F S1x1024 .f32) :
    out1_B_4 c i arg2 harg2 arg3 harg3 arg4 harg4 arg5 harg5 arg6 harg6 hc0 x0 x1 x2 = k1_pay3 i x0 x1 x2 := by
  unfold out1_B_4
  rw [View.read_writes_eq_canon _ _ _ (cover1_B_4 c i arg2 harg2 arg3 harg3 arg4 harg4 arg5 harg5 arg6 harg6 hc0 x0 x1 x2)]
  unfold kernelRun1_B
  dsimp only
  try sl_unfold_words
  rw [View.canon_cons_unit_zero hz]
  simp only [View.readAt_eq_ld, harg2.read_unread, harg3.read_unread, harg4.read_unread,
    View.ld_unit_zero (S := S512x1024) hz, View.ld_unit_zero (S := S512x1) hz, View.ld_unit_zero (S := S1x1024) hz]

end Pieces

/-! ## The stored values at an entry of the tile -/

/-- The product at local position `(p, q)`: the row's scale, the entry, the column's scale. -/
theorem product_apply (x0 : Vec Ideal S512x1024 .f32) (x1 : Vec Ideal S512x1 .f32) (x2 : Vec Ideal S1x1024 .f32) (p : Fin 512) (q : Fin 1024) :
    k1_pay1 (F := Ideal) x0 x1 x2 (ix2 p q) = x1 (ix2 p (0 : Fin 1)) * x0 (ix2 p q) * x2 (ix2 (0 : Fin 1) q) := by
  unfold k1_pay1
  rw [shapeCast_self, shapeCast_self]
  show broadcastTo S512x1024 x1 broadcasts_S512x1_S512x1024 (ix2 p q) * x0 (ix2 p q) * broadcastTo S512x1024 x2 broadcasts_S1x1024_S512x1024 (ix2 p q) = _
  rw [broadcastTo_a1_ab_apply, broadcastTo_1b_ab_apply]

/-- Off the diagonal tiles the second result holds zero minus the product. -/
theorem neg_product_apply (x0 : Vec Ideal S512x1024 .f32) (x1 : Vec Ideal S512x1 .f32) (x2 : Vec Ideal S1x1024 .f32) (p : Fin 512) (q : Fin 1024) :
    k1_pay2 (F := Ideal) x0 x1 x2 (ix2 p q) = 0 - k1_pay1 (F := Ideal) x0 x1 x2 (ix2 p q) := by
  unfold k1_pay2
  show Ideal.ofBits .f32 0x00000000#32 - _ = _
  rw [Ideal.ofBits_zero_f32]

/-- On a diagonal tile the second result holds twice the identity's entry minus the product. -/
theorem eye_product_apply (i : grid1.Coords) (x0 : Vec Ideal S512x1024 .f32) (x1 : Vec Ideal S512x1 .f32) (x2 : Vec Ideal S1x1024 .f32) (p : Fin 512) (q : Fin 1024) :
    k1_pay3 (F := Ideal) i x0 x1 x2 (ix2 p q)
      = 2 * (((((BitVec.ofBool (BitVec.ofNat 32 p.val - BitVec.ofNat 32 q.val + (BitVec.ofNat 32 (i 0).val * 512#32 - BitVec.ofNat 32 (i 1).val * 1024#32) == 0#32)).setWidth 32).toInt : ℝ)) : EReal)
        - k1_pay1 (F := Ideal) x0 x1 x2 (ix2 p q) := by
  have h0 := iota_single_apply .tc S512x1024 32 (0 : Fin 2) iota_S512x1024_d0_w32 (ix2 p q)
  have h1 := iota_single_apply .tc S512x1024 32 (1 : Fin 2) iota_S512x1024_d1_w32 (ix2 p q)
  unfold k1_pay3
  show Ideal.ofBits .f32 0x40000000#32 * (((((BitVec.ofBool (iota .tc S512x1024 32 [(0 : Fin 2)] iota_S512x1024_d0_w32 (ix2 p q) - iota .tc S512x1024 32 [(1 : Fin 2)] iota_S512x1024_d1_w32 (ix2 p q) + (BitVec.ofNat 32 (i 0).val * 512#32 - BitVec.ofNat 32 (i 1).val * 1024#32) == 0#32)).setWidth 32).toInt : ℝ)) : EReal) - _ = _
  rw [h0, h1, word_two]

end Cert.KernelIdeal.Tile

end
-- ==== Proof.DadArray.lean ====
/-
  The second pass, as whole arrays.

  For ANY contents the second call finds in its three input arrays — a matrix `A`, a column `dc` and a row `dr` — its first
  result ends as  dc i · A i j · dr j  and its second as  2·[i = j] − dc i · A i j · dr j,  entry by entry: each tile writes back
  its block of these two functions, and the 16 × 8 tiles cover both results.
-/
import proofs.«174686_j73315091742991_2_alg».proof.Proof.DadBlock

set_option maxRecDepth 16384

noncomputable section

namespace Cert.KernelIdeal.Tile

open Cert.KernelIdeal Cert.KernelIdeal.Gen Cert.KernelIdeal.GenP Cert.GraphFilter
open Idealize.ShloMosaic Idealize.ShloMosaic.TcCoe Idealize.SL.Sem Idealize.ShloMosaic.ValueIdx
open Idealize.ShloMosaic.Pipeline (Dat)

/-- A matrix scaled by a column on the left and a row on the right. -/
def scaled (A : S8192x8192.Idx → EReal) (dc : S8192x1.Idx → EReal) (dr : S1x8192.Idx → EReal) : S8192x8192.Idx → EReal :=
  fun p => dc (ix2 (p 0) (0 : Fin 1)) * A p * dr (ix2 (0 : Fin 1) (p 1))

/-- Twice the identity less the scaled matrix. -/
def eyeLess (A : S8192x8192.Idx → EReal) (dc : S8192x1.Idx → EReal) (dr : S1x8192.Idx → EReal) : S8192x8192.Idx → EReal :=
  fun p => 2 * (if (p 0).val = (p 1).val then (1 : EReal) else 0) - scaled A dc dr p

/-! ## Where the tiles sit -/

/-- The windows' block numbers at a point are the point's tile-row and tile-column; point `t` is tile `(t / 8, t % 8)`. -/
theorem tile_index : ∀ t : Fin cfg1.N,
    win1_0.index t (0 : Fin 2) = (grid1.coords t 0).val ∧ win1_0.index t (1 : Fin 2) = (grid1.coords t 1).val
    ∧ win1_1.index t (0 : Fin 2) = (grid1.coords t 0).val ∧ win1_1.index t (1 : Fin 2) = 0
    ∧ win1_2.index t (0 : Fin 2) = 0 ∧ win1_2.index t (1 : Fin 2) = (grid1.coords t 1).val
    ∧ win1_3.index t (0 : Fin 2) = (grid1.coords t 0).val ∧ win1_3.index t (1 : Fin 2) = (grid1.coords t 1).val
    ∧ win1_4.index t (0 : Fin 2) = (grid1.coords t 0).val ∧ win1_4.index t (1 : Fin 2) = (grid1.coords t 1).val
    ∧ (grid1.coords t 0).val = t.val / 8 ∧ (grid1.coords t 1).val = t.val % 8 :=
  (by decide +kernel : ∀ t : Fin grid1.N, _)

/-- A tile off which the body's branch is not taken holds no diagonal entry: its rows end before its columns begin, or
    its columns end before its rows begin. -/
theorem off_diagonal : ∀ t : Fin cfg1.N, ¬cond1_0 (grid1.coords t) →
    ((grid1.coords t 0).val * 512 + 511 < (grid1.coords t 1).val * 1024 ∨ (grid1.coords t 1).val * 1024 + 1023 < (grid1.coords t 0).val * 512) :=
  (by decide +kernel : ∀ t : Fin grid1.N, _)

section
variable (V : (c : Dev nD) → (b : Ref sig .tc) → Buf (Elt Ideal) ((c : Thread nD τ).loc b))

/-! ## The input blocks read off their arrays -/

theorem tile_matrix (c : Dev nD) (t : Fin cfg1.N) (p : Fin 512) (q : Fin 1024) (I J : Fin 8192)
    (hI : I.val = (grid1.coords t 0).val * 512 + p.val) (hJ : J.val = (grid1.coords t 1).val * 1024 + q.val) :
    (iblk1 V c 0 t : Vec Ideal S512x1024 .f32) (ix2 p q) = (V c main_arg0 : S8192x8192.Idx → EReal) (ix2 I J) := by
  obtain ⟨e0, e1, -⟩ := tile_index t
  unfold iblk1
  rw [View.read_apply]
  show (V c main_arg0 : S8192x8192.Idx → EReal) _ = _
  refine congrArg _ (funext fun a => Fin.ext ?_)
  match a with
  | ⟨0, _⟩ => show win1_0.index t (0 : Fin 2) * 512 + 1 * p.val = I.val; rw [e0, hI]; omega
  | ⟨1, _⟩ => show win1_0.index t (1 : Fin 2) * 1024 + 1 * q.val = J.val; rw [e1, hJ]; omega

theorem tile_column (c : Dev nD) (t : Fin cfg1.N) (p : Fin 512) (I : Fin 8192)
    (hI : I.val = (grid1.coords t 0).val * 512 + p.val) :
    (iblk1 V c 1 t : Vec Ideal S512x1 .f32) (ix2 p (0 : Fin 1)) = (V c main_v0 : S8192x1.Idx → EReal) (ix2 I (0 : Fin 1)) := by
  obtain ⟨-, -, e0, e1, -⟩ := tile_index t
  unfold iblk1
  rw [View.read_apply]
  show (V c main_v0 : S8192x1.Idx → EReal) _ = _
  refine congrArg _ (funext fun a => Fin.ext ?_)
  match a with
  | ⟨0, _⟩ => show win1_1.index t (0 : Fin 2) * 512 + 1 * p.val = I.val; rw [e0, hI]; omega
  | ⟨1, _⟩ => show win1_1.index t (1 : Fin 2) * 1 + 1 * 0 = 0; rw [e1]

theorem tile_row (c : Dev nD) (t : Fin cfg1.N) (q : Fin 1024) (J : Fin 8192)
    (hJ : J.val = (grid1.coords t 1).val * 1024 + q.val) :
    (iblk1 V c 2 t : Vec Ideal S1x1024 .f32) (ix2 (0 : Fin 1) q) = (V c main_v1 : S1x8192.Idx → EReal) (ix2 (0 : Fin 1) J) := by
  obtain ⟨-, -, -, -, e0, e1, -⟩ := tile_index t
  unfold iblk1
  rw [View.read_apply]
  show (V c main_v1 : S1x8192.Idx → EReal) _ = _
  refine congrArg _ (funext fun a => Fin.ext ?_)
  match a with
  | ⟨0, _⟩ => show win1_2.index t (0 : Fin 2) * 1 + 1 * 0 = 0; rw [e0]
  | ⟨1, _⟩ => show win1_2.index t (1 : Fin 2) * 1024 + 1 * q.val = J.val; rw [e1, hJ]; omega

/-- The product a tile stores at `(p, q)` is the scaled matrix at the entry's place in the whole matrix. -/
theorem tile_product (c : Dev nD) (t : Fin cfg1.N) (p : Fin 512) (q : Fin 1024) (I J : Fin 8192)
    (hI : I.val = (grid1.coords t 0).val * 512 + p.val) (hJ : J.val = (grid1.coords t 1).val * 1024 + q.val) :
    k1_pay1 (F := Ideal) (iblk1 V c 0 t) (iblk1 V c 1 t) (iblk1 V c 2 t) (ix2 p q)
      = scaled (V c main_arg0) (V c main_v0) (V c main_v1) (ix2 I J) := by
  rw [product_apply, tile_matrix V c t p q I J hI hJ, tile_column V c t p I hI, tile_row V c t q J hJ]
  rfl

/-! ## What a tile writes back -/

/-- The first result's tile after the body, whichever branch ran: the product. -/
theorem low_tile (c : Dev nD) (t : Fin cfg1.N) :
    (outsAt1 V c t).1 = k1_pay1 (F := Ideal) (iblk1 V c 0 t) (iblk1 V c 1 t) (iblk1 V c 2 t) := by
  unfold outsAt1
  by_cases h : cond1_0 (grid1.coords t)
  · rw [dif_pos h]
    dsimp only
    exact low_on c (grid1.coords t) (ms1_0 t) (hs1_0 t) (ms1_1 t) (hs1_1 t) (ms1_2 t) (hs1_2 t) (ms1_3 t) (hs1_3 t) (ms1_4 t) (hs1_4 t) h (iblk1 V c 0 t) (iblk1 V c 1 t) (iblk1 V c 2 t)
  · rw [dif_neg h]
    dsimp only
    exact low_off c (grid1.coords t) (ms1_0 t) (hs1_0 t) (ms1_1 t) (hs1_1 t) (ms1_2 t) (hs1_2 t) (ms1_3 t) (hs1_3 t) (ms1_4 t) (hs1_4 t) h (iblk1 V c 0 t) (iblk1 V c 1 t) (iblk1 V c 2 t)

/-- Tile `t` writes back its block of the scaled matrix. -/
theorem flushed_low (c : Dev nD) (t : Fin cfg1.N) :
    (dat1 V c).flushed 3 t = ((cfg1.win 3).blk t).view.read (Elt Ideal) (scaled (V c main_arg0) (V c main_v0) (V c main_v1)) := by
  have hN : grid1.N = 128 := N_1
  obtain ⟨-, -, -, -, -, -, e0, e1, -, -, ea, eb⟩ := tile_index t
  show (cfg1.win 3).cut (grid1.coords t) ((dat1 V c).after 3 t) = _
  rw [after1_3, low_tile]
  funext j
  obtain ⟨p, q, rfl⟩ : ∃ (p : Fin 512) (q : Fin 1024), j = ix2 p q := ⟨j 0, j 1, eq_ix2 j⟩
  have ht : t.val < 128 := hN ▸ t.isLt
  have hI : (grid1.coords t 0).val * 512 + p.val < 8192 := by have := p.isLt; omega
  have hJ : (grid1.coords t 1).val * 1024 + q.val < 8192 := by have := q.isLt; omega
  show k1_pay1 (F := Ideal) (iblk1 V c 0 t) (iblk1 V c 1 t) (iblk1 V c 2 t) (ix2 p q)
    = scaled (V c main_arg0) (V c main_v0) (V c main_v1) (((cfg1.win 3).blk t).view.emb (ix2 p q))
  rw [tile_product V c t p q ⟨_, hI⟩ ⟨_, hJ⟩ rfl rfl]
  refine congrArg _ (funext fun a => Fin.ext ?_)
  match a with
  | ⟨0, _⟩ => show (grid1.coords t 0).val * 512 + p.val = win1_3.index t (0 : Fin 2) * 512 + 1 * p.val; rw [e0]; omega
  | ⟨1, _⟩ => show (grid1.coords t 1).val * 1024 + q.val = win1_3.index t (1 : Fin 2) * 1024 + 1 * q.val; rw [e1]; omega

/-- The second result's tile after the body at `(p, q)`: twice the identity's entry minus the product, in both cases. -/
theorem high_tile_apply (c : Dev nD) (t : Fin cfg1.N) (p : Fin 512) (q : Fin 1024) (I J : Fin 8192)
    (hI : I.val = (grid1.coords t 0).val * 512 + p.val) (hJ : J.val = (grid1.coords t 1).val * 1024 + q.val) :
    (outsAt1 V c t).2 (ix2 p q) = eyeLess (V c main_arg0) (V c main_v0) (V c main_v1) (ix2 I J) := by
  have hN : grid1.N = 128 := N_1
  have ht : t.val < 128 := hN ▸ t.isLt
  obtain ⟨-, -, -, -, -, -, -, -, -, -, ea, eb⟩ := tile_index t
  have ha : (grid1.coords t 0).val < 16 := by omega
  have hb : (grid1.coords t 1).val < 8 := by omega
  unfold outsAt1 eyeLess
  by_cases h : cond1_0 (grid1.coords t)
  · rw [dif_pos h]
    dsimp only
    rw [high_on c (grid1.coords t) (ms1_0 t) (hs1_0 t) (ms1_1 t) (hs1_1 t) (ms1_2 t) (hs1_2 t) (ms1_3 t) (hs1_3 t) (ms1_4 t) (hs1_4 t) h (iblk1 V c 0 t) (iblk1 V c 1 t) (iblk1 V c 2 t), eye_product_apply, tile_product V c t p q I J hI hJ,
      tile_diag_toInt _ _ _ _ ha hb p.isLt q.isLt]
    show 2 * (((if (grid1.coords t 0).val * 512 + p.val = (grid1.coords t 1).val * 1024 + q.val then (1 : ℝ) else 0 : ℝ)) : EReal) - _
      = 2 * (if I.val = J.val then (1 : EReal) else 0) - _
    rw [hI, hJ]
    split <;> simp
  · rw [dif_neg h]
    dsimp only
    rw [high_off c (grid1.coords t) (ms1_0 t) (hs1_0 t) (ms1_1 t) (hs1_1 t) (ms1_2 t) (hs1_2 t) (ms1_3 t) (hs1_3 t) (ms1_4 t) (hs1_4 t) h (iblk1 V c 0 t) (iblk1 V c 1 t) (iblk1 V c 2 t), neg_product_apply, tile_product V c t p q I J hI hJ]
    have hne : ¬ (I.val = J.val) := by
      have := off_diagonal t h
      have := p.isLt; have := q.isLt
      omega
    show 0 - _ = 2 * (if I.val = J.val then (1 : EReal) else 0) - _
    rw [if_neg hne, mul_zero]

/-- Tile `t` writes back its block of twice the identity less the scaled matrix. -/
theorem flushed_high (c : Dev nD) (t : Fin cfg1.N) :
    (dat1 V c).flushed 4 t = ((cfg1.win 4).blk t).view.read (Elt Ideal) (eyeLess (V c main_arg0) (V c main_v0) (V c main_v1)) := by
  have hN : grid1.N = 128 := N_1
  obtain ⟨-, -, -, -, -, -, -, -, e0, e1, ea, eb⟩ := tile_index t
  show (cfg1.win 4).cut (grid1.coords t) ((dat1 V c).after 4 t) = _
  rw [after1_4]
  funext j
  obtain ⟨p, q, rfl⟩ : ∃ (p : Fin 512) (q : Fin 1024), j = ix2 p q := ⟨j 0, j 1, eq_ix2 j⟩
  have ht : t.val < 128 := hN ▸ t.isLt
  have hI : (grid1.coords t 0).val * 512 + p.val < 8192 := by have := p.isLt; omega
  have hJ : (grid1.coords t 1).val * 1024 + q.val < 8192 := by have := q.isLt; omega
  show (outsAt1 V c t).2 (ix2 p q)
    = eyeLess (V c main_arg0) (V c main_v0) (V c main_v1) (((cfg1.win 4).blk t).view.emb (ix2 p q))
  rw [high_tile_apply V c t p q ⟨_, hI⟩ ⟨_, hJ⟩ rfl rfl]
  refine congrArg _ (funext fun a => Fin.ext ?_)
  match a with
  | ⟨0, _⟩ => show (grid1.coords t 0).val * 512 + p.val = win1_4.index t (0 : Fin 2) * 512 + 1 * p.val; rw [e0]; omega
  | ⟨1, _⟩ => show (grid1.coords t 1).val * 1024 + q.val = win1_4.index t (1 : Fin 2) * 1024 + 1 * q.val; rw [e1]; omega

/-! ## The tiles cover the results -/

theorem mem_tile3 (t : Fin cfg1.N) (i : S8192x8192.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v2_0).slice (win1_3.rect t)).set ↔ _
  rw [View.set_slice_whole, Rect.mem_set_unit]
  exact Iff.rfl

theorem mem_tile4 (t : Fin cfg1.N) (i : S8192x8192.Idx) :
    i ∈ ((cfg1.win 4).blk t).view.set ↔ ∀ a : Fin 2, win1_4.index t a * S512x1024.size a ≤ (i a).val ∧ (i a).val < win1_4.index t a * S512x1024.size a + S512x1024.size a := by
  show i ∈ ((View.whole main_v2_1).slice (win1_4.rect t)).set ↔ _
  rw [View.set_slice_whole, Rect.mem_set_unit]
  exact Iff.rfl

/-- The tile that holds entry `(r, s)`: tile-row `r / 512`, tile-column `s / 1024`. -/
def tileOf (i : S8192x8192.Idx) : Fin cfg1.N :=
  ⟨(i 0).val / 512 * 8 + (i 1).val / 1024, by
    have hN : grid1.N = 128 := N_1
    have h0 : (i 0).val < 8192 := (i 0).isLt
    have h1 : (i 1).val < 8192 := (i 1).isLt
    show (i 0).val / 512 * 8 + (i 1).val / 1024 < grid1.N
    rw [hN]; omega⟩

theorem tileOf_coords (i : S8192x8192.Idx) :
    (grid1.coords (tileOf i) 0).val = (i 0).val / 512 ∧ (grid1.coords (tileOf i) 1).val = (i 1).val / 1024 := by
  obtain ⟨-, -, -, -, -, -, -, -, -, -, ea, eb⟩ := tile_index (tileOf i)
  have h0 : (i 0).val < 8192 := (i 0).isLt
  have h1 : (i 1).val < 8192 := (i 1).isLt
  have hv : (tileOf i).val = (i 0).val / 512 * 8 + (i 1).val / 1024 := rfl
  rw [ea, eb, hv]
  constructor <;> omega

/-- After the second call the first result holds the scaled matrix. -/
theorem final_low (c : Dev nD) :
    (dat1 V c).arrAt 3 cfg1.N = scaled (V c main_arg0) (V c main_v0) (V c main_v1) := by
  refine (dat1 V c).arrAt_eq_of_cover 3 _ (fun t _ => flushed_low V c t) fun i => ?_
  obtain ⟨-, -, -, -, -, -, e0, e1, -⟩ := tile_index (tileOf i)
  obtain ⟨c0, c1⟩ := tileOf_coords i
  refine ⟨tileOf i, flush1_3 (tileOf i), ?_⟩
  rw [mem_tile3]
  intro a
  match a with
  | ⟨0, _⟩ =>
    show win1_3.index (tileOf i) (0 : Fin 2) * 512 ≤ (i 0).val ∧ (i 0).val < win1_3.index (tileOf i) (0 : Fin 2) * 512 + 512
    rw [e0, c0]; omega
  | ⟨1, _⟩ =>
    show win1_3.index (tileOf i) (1 : Fin 2) * 1024 ≤ (i 1).val ∧ (i 1).val < win1_3.index (tileOf i) (1 : Fin 2) * 1024 + 1024
    rw [e1, c1]; omega

/-- After the second call the second result holds twice the identity less the scaled matrix. -/
theorem final_high (c : Dev nD) :
    (dat1 V c).arrAt 4 cfg1.N = eyeLess (V c main_arg0) (V c main_v0) (V c main_v1) := by
  refine (dat1 V c).arrAt_eq_of_cover 4 _ (fun t _ => flushed_high V c t) fun i => ?_
  obtain ⟨-, -, -, -, -, -, -, -, e0, e1, -⟩ := tile_index (tileOf i)
  obtain ⟨c0, c1⟩ := tileOf_coords i
  refine ⟨tileOf i, flush1_4 (tileOf i), ?_⟩
  rw [mem_tile4]
  intro a
  match a with
  | ⟨0, _⟩ =>
    show win1_4.index (tileOf i) (0 : Fin 2) * 512 ≤ (i 0).val ∧ (i 0).val < win1_4.index (tileOf i) (0 : Fin 2) * 512 + 512
    rw [e0, c0]; omega
  | ⟨1, _⟩ =>
    show win1_4.index (tileOf i) (1 : Fin 2) * 1024 ≤ (i 1).val ∧ (i 1).val < win1_4.index (tileOf i) (1 : Fin 2) * 1024 + 1024
    rw [e1, c1]; omega

end

end Cert.KernelIdeal.Tile

end
-- ==== Proof.KernelValue.lean ====
/-
  The kernel's two results as functions of its argument.

  Between the two calls the program reshapes the 8192 × 1 column of row scales into a 1 × 8192 row.  So the second call
  finds the matrix as launched, the column of its row scales, and the same scales as a row; by the two passes' readings its
  results are the low-pass filter  d i · A i j · d j  and the high-pass filter  2·[i = j] − d i · A i j · d j  of the matrix.
-/
import proofs.«174686_j73315091742991_2_alg».proof.Proof.KernelRun
import proofs.«174686_j73315091742991_2_alg».proof.Proof.RowScale
import proofs.«174686_j73315091742991_2_alg».proof.Proof.DadArray
import Idealize.ShloMosaic.Lib.StableHlo.Run

set_option maxRecDepth 16384

noncomputable section

namespace Cert.KernelIdeal.Val

open Cert.KernelIdeal Cert.KernelIdeal.Gen Cert.KernelIdeal.GenP Cert.GraphFilter Cert.KernelIdeal.Tile
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The second call finds the matrix as launched. -/
theorem entry_matrix (c : Dev nD) : V2 m ρ c main_arg0 = m ((c : Thread nD τ).loc main_arg0) :=
  (((A_eq1 (V2 m ρ) c 0).symm.trans ((dat1 (V2 m ρ) c).arrAt_in 0 rfl _).symm).trans (W3_arr m ρ c 0).symm).trans (W3_main_arg0 m ρ c)

/-- The first call leaves the column of row scales of the launched matrix. -/
theorem exit_column (c : Dev nD) : (V1 m ρ c main_v0 : S8192x1.Idx → EReal) = scaleCol (m ((c : Thread nD τ).loc main_arg0)) :=
  (W1_arr m ρ c 1).trans (final_scaleCol (V0 m ρ) c)

/-- The reshape leaves the column where it was … -/
theorem entry_column (c : Dev nD) : (V2 m ρ c main_v0 : S8192x1.Idx → EReal) = (V1 m ρ c main_v0 : S8192x1.Idx → EReal) := by
  show StableHlo.after hostOps1 (W1 m ρ c) (Proc.devRef .tc main_v0) = _
  after_results <;> rfl

/-- … and writes it, in row-major order, as the row. -/
theorem entry_row (c : Dev nD) : (V2 m ρ c main_v1 : S1x8192.Idx → EReal)
    = shapeCast S1x8192 (V1 m ρ c main_v0 : S8192x1.Idx → EReal) shapeCasts_S8192x1_S1x8192 := by
  show StableHlo.after hostOps1 (W1 m ρ c) (Proc.devRef .tc main_v1) = _
  after_results <;> rfl

/-- Entry `J` of the row is entry `J` of the column. -/
theorem row_of_column (x : S8192x1.Idx → EReal) (J : Fin 8192) :
    shapeCast S1x8192 x shapeCasts_S8192x1_S1x8192 (ix2 (0 : Fin 1) J) = x (ix2 J (0 : Fin 1)) :=
  shapeCast_apply x shapeCasts_S8192x1_S1x8192 _ _ (by
    rw [Shape.rowMajor_val_two, Shape.rowMajor_val_two]
    show J.val * 1 + 0 = 0 * 8192 + J.val
    omega)

/-- With the scales of the launched matrix as column and row, the scaled matrix is the low-pass filter. -/
theorem scaled_entry (c : Dev nD) :
    scaled (V2 m ρ c main_arg0) (V2 m ρ c main_v0) (V2 m ρ c main_v1) = lowPass (m ((c : Thread nD τ).loc main_arg0)) := by
  rw [entry_matrix, entry_column, entry_row, exit_column]
  funext p
  obtain ⟨I, J, rfl⟩ : ∃ (I J : Fin 8192), p = ix2 I J := ⟨p 0, p 1, eq_ix2 p⟩
  unfold scaled lowPass
  show scaleCol _ (ix2 I (0 : Fin 1)) * _ * shapeCast S1x8192 _ shapeCasts_S8192x1_S1x8192 (ix2 (0 : Fin 1) J) = _
  rw [row_of_column]
  rfl

theorem eyeLess_entry (c : Dev nD) :
    eyeLess (V2 m ρ c main_arg0) (V2 m ρ c main_v0) (V2 m ρ c main_v1) = highPass (m ((c : Thread nD τ).loc main_arg0)) := by
  funext p
  unfold eyeLess highPass
  rw [scaled_entry]

/-- Every weakly fair execution of the kernel program ends with the low-pass and the high-pass filter of its argument
    as results, and the argument unchanged. -/
theorem kernel_filters : θ_run defs (onTc (τ := τ) (main (F := Ideal))) ⟨m, fun _ => 0, ρ⟩ (fun r => ∀ c : Dev nD,
      r.2.mem ((c.tc : Thread nD τ).loc main_v2_0) = lowPass (m ((c.tc : Thread nD τ).loc main_arg0))
      ∧ r.2.mem ((c.tc : Thread nD τ).loc main_v2_1) = highPass (m ((c.tc : Thread nD τ).loc main_arg0))
      ∧ r.2.mem ((c.tc : Thread nD τ).loc main_arg0) = m ((c.tc : Thread nD τ).loc main_arg0)) :=
  (θ_run defs _ _).mono (fun r h c => ⟨(h c).1.trans ((final_low (V2 m ρ) c).trans (scaled_entry m ρ c)),
      (h c).2.1.trans ((final_high (V2 m ρ) c).trans (eyeLess_entry m ρ c)), (h c).2.2⟩)
    (run_results m ρ)

end Cert.KernelIdeal.Val

end
-- ==== Proof.RefFilters.lean ====
/-
  The reference program's two results as functions of its argument.

  The reference sums each row of the matrix, divides one by the square root of the sum and replaces an infinite quotient by
  zero; it scales each entry by its row's and its column's quotient, `x = d i · A i j · d j`; with `δ` the identity matrix's
  entry it returns `δ − (δ − x)` and `δ + (δ − x)`.  The quotient is the scale of the row sum (the two spellings of the
  scale agree), so `x` is the low-pass filter's entry; where the matrix entry is a real number so is `x`, and the two
  results are `x` and `2·δ − x`: the low-pass and the high-pass filter.
-/
import proofs.«174686_j73315091742991_2_alg».proof.Proof.Gen.ReferenceIdeal.Read
import proofs.«174686_j73315091742991_2_alg».proof.Proof.Scale
import proofs.«174686_j73315091742991_2_alg».proof.Proof.DiagWord
import Idealize.ShloMosaic.Lib.ValueIdx
import Idealize.ShloMosaic.PureOps.Ideal.Laws

noncomputable section

namespace Cert.ReferenceIdeal.Filters

open Cert.ReferenceIdeal Cert.ReferenceIdeal.Read Cert.GraphFilter
open Idealize.ShloMosaic Idealize.ShloMosaic.ValueIdx

/-- A select on "equal" is the `if` on the equality. -/
theorem select_oeq {α : Type} (x y : EReal) (a b : α) : Scalar.select (Ideal.cmp .oeq x y) a b = if x = y then a else b := by
  unfold Scalar.select Ideal.cmp
  by_cases h : x = y <;> simp [h]

/-- The reference's quotient for row `i` is the scale of the row's sum. -/
theorem quotient_apply (x0 : S8192x8192.Idx → EReal) (i : Fin 8192) :
    val_main_v5 (F := Ideal) x0 (ix1 i) = scale x0 i := by
  have hsum : (∑ k : Fin 8192, x0 (idx_main_v0 (ix1 i) k)) = rowSum x0 i :=
    Finset.sum_congr rfl fun k _ => congrArg x0 (funext fun a => Fin.ext (by match a with | ⟨0, _⟩ => rfl | ⟨1, _⟩ => rfl))
  rw [val_main_v5_apply, val_main_v4_apply, val_main_call0_v0_apply, val_main_call0_v1_apply, val_main_call0_cst_apply,
    val_main_call1_v1_apply, val_main_call1_v0_apply, val_main_cst_1_apply, val_main_v3_apply, val_main_v2_apply,
    val_main_cst_0_apply, val_main_v1_apply, val_main_v0_apply, val_main_cst_apply, hsum]
  simp only [Ideal.hostAbsf_def, Ideal.absf_def, Ideal.cmpf_def, Ideal.hostDivf_def, Ideal.hostUnary_sqrt_def, Ideal.ofBits_def,
    word_one, word_inf, Ideal.ofBits_zero_f32, zero_add]
  rw [select_oeq]
  exact scaleR_eq_scaleK (rowSum x0 i)

/-- The reference's identity matrix at `(I, J)`. -/
theorem eye_apply (I J : Fin 8192) :
    val_main_v17 (F := Ideal) (ix2 I J) = (((if I.val = J.val then (1 : ℝ) else 0 : ℝ)) : EReal) := by
  rw [val_main_v17_apply, val_main_v16_apply, val_main_v15_apply, val_main_v12_apply, val_main_v14_apply, val_main_c_apply,
    val_main_v13_apply]
  show ((((BitVec.ofBool (BitVec.ofNat 32 I.val + 0#32 == BitVec.ofNat 32 J.val)).toNat : ℝ)) : EReal) = _
  rw [index_eq_toNat _ _ I.isLt J.isLt]

/-- The reference's scaled entry is the low-pass filter's. -/
theorem product_apply (x0 : S8192x8192.Idx → EReal) (I J : Fin 8192) :
    val_main_v11 (F := Ideal) x0 (ix2 I J) = lowPass x0 (ix2 I J) := by
  have e6 : idx_main_v6 (idx_main_v7 (ix2 I J)) = ix1 I := funext fun a => Fin.ext (by match a with | ⟨0, _⟩ => rfl)
  have e9 : idx_main_v9 (idx_main_v10 (ix2 I J)) = ix1 J := funext fun a => Fin.ext (by match a with | ⟨0, _⟩ => rfl)
  rw [val_main_v11_apply, val_main_v8_apply, val_main_v7_apply, val_main_v6_apply, val_main_v10_apply, val_main_v9_apply,
    e6, e9, quotient_apply, quotient_apply]
  rfl

/-- Where the matrix entry is real, the reference's first result is the low-pass filter's entry … -/
theorem low_apply (x0 : S8192x8192.Idx → EReal) (p : S8192x8192.Idx) (hx : ∃ a : ℝ, x0 p = (a : EReal)) :
    val_main_v19 (F := Ideal) x0 p = lowPass x0 p := by
  obtain ⟨I, J, rfl⟩ : ∃ (I J : Fin 8192), p = ix2 I J := ⟨p 0, p 1, eq_ix2 p⟩
  obtain ⟨x, hxl⟩ := lowPass_real x0 (ix2 I J) hx
  rw [val_main_v19_apply, val_main_v18_apply, product_apply, eye_apply, hxl]
  simp only [Ideal.subf_def]
  refine sub_sub_self_real _ ?_ x
  split
  · right; norm_cast
  · left; norm_cast

/-- … and its second result the high-pass filter's. -/
theorem high_apply (x0 : S8192x8192.Idx → EReal) (p : S8192x8192.Idx) (hx : ∃ a : ℝ, x0 p = (a : EReal)) :
    val_main_v20 (F := Ideal) x0 p = highPass x0 p := by
  obtain ⟨I, J, rfl⟩ : ∃ (I J : Fin 8192), p = ix2 I J := ⟨p 0, p 1, eq_ix2 p⟩
  obtain ⟨x, hxl⟩ := lowPass_real x0 (ix2 I J) hx
  unfold highPass
  rw [val_main_v20_apply, val_main_v18_apply, product_apply, eye_apply, hxl]
  simp only [Ideal.subf_def, Ideal.addf_def]
  have hδ : ((((if I.val = J.val then (1 : ℝ) else 0 : ℝ)) : EReal)) = (if I.val = J.val then (1 : EReal) else 0) := by
    split <;> norm_cast
  rw [hδ]
  refine add_sub_real _ ?_ x
  split
  · right; rfl
  · left; rfl

/-- On a matrix of real entries the reference's results are the two filters. -/
theorem results (x0 : S8192x8192.Idx → EReal) (hx : ∀ p, ∃ a : ℝ, x0 p = (a : EReal)) :
    val_main_v19 (F := Ideal) x0 = lowPass x0 ∧ val_main_v20 (F := Ideal) x0 = highPass x0 :=
  ⟨funext fun p => low_apply x0 p (hx p), funext fun p => high_apply x0 p (hx p)⟩

end Cert.ReferenceIdeal.Filters

end
-- ==== Proof.Finite.lean ====
/-
  The precondition, read back: every entry of the argument is a real number.

  The precondition takes the absolute value of every entry, compares it with `+∞` and asks that all comparisons hold.  An
  extended real whose absolute value is below `+∞` is neither `+∞` nor `−∞`: it is a real number.
-/
import proofs.«174686_j73315091742991_2_alg».proof.Pre_finite_inputs
import proofs.«174686_j73315091742991_2_alg».proof.Proof.Scale
import Idealize.ShloMosaic.Lib.ReduceAll
import Idealize.ShloMosaic.Lib.Pipeline.Value
import Idealize.ShloMosaic.Lib.ValueIdx

noncomputable section

namespace Cert.Pre_finite_inputs.Real

open Cert.Pre_finite_inputs Cert.GraphFilter Idealize.ShloMosaic

/-- An extended real whose absolute value is below `+∞` is a real number. -/
theorem real_of_abs_lt_inf (x : EReal) (h : Ideal.cmp .olt (max x (-x)) (Ideal.ofBits .f32 0x7F800000#32) = 1#1) :
    ∃ a : ℝ, x = (a : EReal) := by
  rw [word_inf] at h
  unfold Ideal.cmp at h
  induction x using EReal.rec with
  | bot => simp at h
  | top => simp at h
  | coe a => exact ⟨a, rfl⟩

/-- Under the precondition every entry of the matrix is a real number. -/
theorem entries_real [Facts] (x : FVec Ideal S8192x8192 .f32) (h : fn (F := Ideal) x = fun _ => 1#1) (p : S8192x8192.Idx) :
    ∃ a : ℝ, x p = (a : EReal) := by
  haveI : Subsingleton S_.Idx := ⟨fun a b => funext fun d => d.elim0⟩
  have h0 := congrFun h ValueIdx.ix0
  dsimp only [fn] at h0
  have hp := Host.reduce_andi_all _ _ _ _ _ h0 p
  have hb : broadcastInDim S8192x8192 ![] Facts.bcast_S_S8192x8192 (constant (F := Ideal) S_ .f32 0x7F800000#32) p
      = Ideal.ofBits .f32 0x7F800000#32 :=
    broadcastInDim_apply _ Facts.bcast_S_S8192x8192 _ p ValueIdx.ix0 (fun a => a.elim0)
  have hc : Ideal.cmp .olt (max (x p) (-(x p))) (Ideal.ofBits .f32 0x7F800000#32) = 1#1 := by
    rw [← hb]; exact hp
  exact real_of_abs_lt_inf _ hc

end Cert.Pre_finite_inputs.Real

end
-- ==== Proof.lean ====
/-
  Two programs that build the low-pass and the high-pass filter of a graph's adjacency matrix compute the same extended
  reals.

  For an 8192 × 8192 matrix `A` of finite entries let `d i` be one over the square root of the sum of row `i`, taken to be
  zero where that is not a finite number.  Both programs return  L i j = d i · A i j · d j,  H i j = 2·[i = j] − L i j  and the
  matrix itself.

  The kernel program makes two passes.  The first walks the matrix in strips of 512 rows, sums each row and stores the
  reciprocal square root of a positive sum, zero otherwise, as a column.  The column is reshaped into a row.  The second
  walks the matrix in tiles of 512 × 1024 entries, stores the product of an entry with its row's and its column's scale in
  the first result and zero minus it in the second, and at a tile that meets the diagonal stores twice the identity minus
  the product there instead; off those tiles the identity is zero, so the second result is  2·[i = j] − L i j  everywhere.
  The reference divides one by the square root of the row sum and replaces an infinite quotient by zero, which on the
  extended reals is the same scale; it returns  δ − (δ − L)  and  δ + (δ − L)  with `δ` the identity, which are `L` and
  `2·δ − L` because every entry of `L` is a real number when the entries of the matrix are.

  Each program terminates on every weakly fair execution, faults nowhere and leaves its argument unchanged; the kernel
  program's idealization rewrote nothing.
-/
import proofs.«174686_j73315091742991_2_alg».proof.Defs
import proofs.«174686_j73315091742991_2_alg».proof.Proof.Gen.Kernel
import proofs.«174686_j73315091742991_2_alg».proof.Proof.Gen.KernelIdeal
import proofs.«174686_j73315091742991_2_alg».proof.Proof.Gen.ReferenceIdeal
import proofs.«174686_j73315091742991_2_alg».proof.Proof.Gen.ReferenceIdeal.Run
import proofs.«174686_j73315091742991_2_alg».proof.Proof.Gen.ReferenceIdeal.Read
import proofs.«174686_j73315091742991_2_alg».proof.Proof.Gen.Pre_finite_inputs
import proofs.«174686_j73315091742991_2_alg».proof.Proof.FrameK
import proofs.«174686_j73315091742991_2_alg».proof.Proof.FrameKI
import proofs.«174686_j73315091742991_2_alg».proof.Proof.KernelValue
import proofs.«174686_j73315091742991_2_alg».proof.Proof.RefFilters
import proofs.«174686_j73315091742991_2_alg».proof.Proof.Finite
import Idealize.ShloMosaic.Adequacy
import Idealize.ShloMosaic.Init

noncomputable section

namespace Cert.Proof

open Idealize.ShloMosaic Idealize.ShloMosaic.TcCoe Idealize.SL.Sem Cert.GraphFilter

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2.2.1) (Cert.ReferenceIdeal.Value.run (F := Ideal) m ρ)

theorem preserves : Cert.preserves_Kernel_KernelIdeal := trivial

/-- Both programs end with the low-pass filter, the high-pass filter and the matrix itself. -/
theorem algebraic : Cert.algebraic_KernelIdeal_ReferenceIdeal := by
  intro m ρ m' ρ' hpre hagree
  refine ⟨fun c => lowPass (m ((c.tc : Thread Cert.KernelIdeal.nD Cert.KernelIdeal.τ).loc Cert.KernelIdeal.main_arg0)),
    fun c => highPass (m ((c.tc : Thread Cert.KernelIdeal.nD Cert.KernelIdeal.τ).loc Cert.KernelIdeal.main_arg0)),
    fun c => m ((c.tc : Thread Cert.KernelIdeal.nD Cert.KernelIdeal.τ).loc Cert.KernelIdeal.main_arg0), ?_, ?_⟩
  · exact (θ_run Cert.KernelIdeal.defs _ _).mono (fun r h c => ⟨(h c).1, (h c).2.1, (h c).2.2, (h c).2.2⟩)
      (Cert.KernelIdeal.Val.kernel_filters m ρ)
  · refine (θ_run Cert.ReferenceIdeal.defs _ _).mono (fun r h c => ?_) (Cert.ReferenceIdeal.Value.run (F := Ideal) m' ρ')
    have hreal : ∀ p, ∃ a : ℝ, (m' ((c.tc : Thread Cert.ReferenceIdeal.nD Cert.ReferenceIdeal.τ).loc Cert.ReferenceIdeal.main_arg0)
        : Cert.ReferenceIdeal.S8192x8192.Idx → EReal) p = (a : EReal) := by
      rw [hagree c]
      exact fun p => Cert.Pre_finite_inputs.Real.entries_real _ (hpre c) p
    obtain ⟨e19, e20⟩ := Cert.ReferenceIdeal.Filters.results _ hreal
    refine ⟨(h c).1.trans ?_, (h c).2.1.trans ?_, (h c).2.2.1.trans (hagree c), (h c).2.2.2⟩
    · rw [Cert.ReferenceIdeal.Read.val_main_v19_eq, e19, hagree c]
    · rw [Cert.ReferenceIdeal.Read.val_main_v20_eq, e20, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
